-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384 : Shape := ⟨1, ![16384]⟩
abbrev S8192x64 : Shape := ⟨2, ![8192, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S16384x64 .f32) (main_arg1 : IVec S16384 32) (main_arg2 : FVec F S8192x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S8192x64 .f32 := Host.absf main_arg2
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S16384x64 : Shape := ⟨2, ![16384, 64]⟩
abbrev S16384 : Shape := ⟨1, ![16384]⟩
abbrev S8192x64 : Shape := ⟨2, ![8192, 64]⟩
abbrev S16384x1 : Shape := ⟨2, ![16384, 1]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S128x64 : Shape := ⟨2, ![128, 64]⟩
abbrev S128x1 : Shape := ⟨2, ![128, 1]⟩
abbrev S128 : Shape := ⟨1, ![128]⟩
abbrev S64x8192 : Shape := ⟨2, ![64, 8192]⟩
abbrev S128x8192 : Shape := ⟨2, ![128, 8192]⟩
abbrev S1 : Shape := ⟨1, ![1]⟩

abbrev nBuf : Space → Nat
  | .hbm => 14
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S8192x64, .f32⟩
  | .hbm, ⟨3, _⟩ => ⟨S16384x1, .i32⟩
  | .hbm, ⟨4, _⟩ => ⟨S8192x64, .bf16⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S128x1, .i32⟩
  | .local _ .vmem, ⟨3, _⟩ => ⟨S128x1, .i32⟩
  | .local _ .vmem, ⟨4, _⟩ => ⟨S8192x64, .bf16⟩
  | .local _ .vmem, ⟨5, _⟩ => ⟨S1x8192, .f32⟩
  | .local _ .vmem, ⟨6, _⟩ => ⟨S1x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S16384_S16384x1 : S16384.ShapeCasts S16384x1
  bitsLt_bf16_f32 : FTy.bits .bf16 < FTy.bits .f32
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1x1_S1x1_0_0 : ∀ a, (![0, 0] : Fin 2 → Nat) a + S1x1.size a ≤ S1x1.size a
  h_S1x1 : 0 < S1x1.numel
  inb_S128x64_S128x64_0_0 : ∀ a, (![0, 0] : Fin 2 → Nat) a + S128x64.size a ≤ S128x64.size a
  h_S128x64 : 0 < S128x64.numel
  reduces_S128x64_S128 : S128x64.Reduces [1] S128
  shapeCasts_S128_S128x1 : S128.ShapeCasts S128x1
  broadcasts_S128x1_S128x64 : S128x1.Broadcasts S128x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  transposes_S8192x64_p1_0_S64x8192 : S8192x64.Transposes [1, 0] S64x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x8192_d1_w32 : S128x8192.Iotas .tc 32 [1]
  reduces_S128x8192_S128 : S128x8192.Reduces [1] S128
  reduces_S128x1_S1 : S128x1.Reduces [0] S1
  shapeCasts_S1_S1x1 : S1.ShapeCasts S1x1
  shapeCasts_S1x1_S1x1 : S1x1.ShapeCasts S1x1
  shapeCasts_S1x1_S_ : S1x1.ShapeCasts S_
  dot_S128x64_S64x8192_S128x8192_1_0_0_1_n_n_wf : DotDims.WF S128x64 S64x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S16384x64.size a
  hwx0_0 : ∀ i : grid0.Coords, EltTy.bits .f32 = 32 ∨ (Rect.block (s := S16384x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S16384x1.size a
  hwx0_1 : ∀ i : grid0.Coords, EltTy.bits .i32 = 32 ∨ (Rect.block (s := S16384x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .bf16 = 32 ∨ (Rect.block (s := S8192x64) S8192x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S128x64_S64x8192_S128x8192_1_0_0_1_n_n : DotDims S128x64 S64x8192 S128x8192 where
  lhsContracting := [1]
  rhsContracting := [0]
  lhsNonContracting := [0]
  rhsNonContracting := [1]
  lhsBatch := []
  rhsBatch := []
  wf := dot_S128x64_S64x8192_S128x8192_1_0_0_1_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384 : Shape := ⟨1, ![16384]⟩
abbrev S8192x64 : Shape := ⟨2, ![8192, 64]⟩
abbrev S_ : Shape := ⟨0, ![]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S64x8192 : Shape := ⟨2, ![64, 8192]⟩

abbrev nBuf : Space → Nat
  | .hbm => 42
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S8192x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S8192x64, .f32⟩
  | .hbm, ⟨18, _⟩ => ⟨S_, .f32⟩
  | .hbm, ⟨19, _⟩ => ⟨S8192, .f32⟩
  | .hbm, ⟨20, _⟩ => ⟨S1x8192, .f32⟩
  | .hbm, ⟨21, _⟩ => ⟨S16384x8192, .f32⟩
  | .hbm, ⟨22, _⟩ => ⟨S16384x8192, .f32⟩
  | .hbm, ⟨23, _⟩ => ⟨S16384x8192, .f32⟩
  | .hbm, ⟨24, _⟩ => ⟨S64x8192, .f32⟩
  | .hbm, ⟨25, _⟩ => ⟨S16384x8192, .f32⟩
  | .hbm, ⟨26, _⟩ => ⟨S_, .f32⟩
  | .hbm, ⟨27, _⟩ => ⟨S16384x8192, .f32⟩
  | .hbm, ⟨28, _⟩ => ⟨S16384x8192, .f32⟩
  | .hbm, ⟨29, _⟩ => ⟨S16384x8192, .f32⟩
  | .hbm, ⟨30, _⟩ => ⟨S16384x1, .i32⟩
  | .hbm, ⟨31, _⟩ => ⟨S8192, .i32⟩
  | .hbm, ⟨32, _⟩ => ⟨S1x8192, .i32⟩
  | .hbm, ⟨33, _⟩ => ⟨S16384x8192, .i32⟩
  | .hbm, ⟨34, _⟩ => ⟨S16384x8192, .i32⟩
  | .hbm, ⟨35, _⟩ => ⟨S16384x8192, .i1⟩
  | .hbm, ⟨36, _⟩ => ⟨S16384x8192, .f32⟩
  | .hbm, ⟨37, _⟩ => ⟨S16384x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  reducesTo_S8192x64_S8192_d1 : S8192x64.ReducesTo [1] S8192
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  transposes_S8192x64_S64x8192_1_0 : S8192x64.Transposes [1, 0] S64x8192
  bcast_S_S16384x8192 : S_.BroadcastsInDim S16384x8192 (![] : Fin 0 → Fin S16384x8192.rank)
  reducesTo_S16384x8192_S_d0_1 : S16384x8192.ReducesTo [0, 1] S_
  dot_S16384x64_S64x8192_S16384x8192_1_0_0_1_n_n_wf : DotDims.WF S16384x64 S64x8192 S16384x8192 [1] [0] [0] [1] [] []

variable [Facts₀]

def dot_S16384x64_S64x8192_S16384x8192_1_0_0_1_n_n : DotDims S16384x64 S64x8192 S16384x8192 where
  lhsContracting := [1]
  rhsContracting := [0]
  lhsNonContracting := [0]
  rhsNonContracting := [1]
  lhsBatch := []
  rhsBatch := []
  wf := dot_S16384x64_S64x8192_S16384x8192_1_0_0_1_n_n_wf

class Facts : Prop extends Facts₀ where

variable [Facts]
-- ==== Proof.Spec.lean ====
/-
  The centre loss as one function of the three argument arrays, over the extended reals.

  Rows of `x` are normalised by `max (√(∑ₖ x²)) ε`; the squared distance of the normalised row `R` to centre `c` is
  `∑ₖ u² + ∑ₖ C² - 2 · ∑ₖ u · C`; only the entry whose column is the row's label is kept (the others are `0`); the kept
  entries are summed over all rows and columns and divided by the number of rows.  The functions are stated over
  curried arrays (a row count `n`, 64 features, 8192 centres) so that a block of rows is the same function of fewer rows.
  Everything here is pure mathematics of the extended reals: sums are finite sums in a commutative monoid, so a sum
  over all rows regroups into 128 tiles of 128 rows with no side condition.
-/
import Idealize.ShloMosaic.PureOps.Ideal
import Idealize.ShloMosaic.PureOps.Ideal.Laws
import Idealize.ShloMosaic.Lib.ValueIdx

noncomputable section

namespace Cert.CenterLoss

open Idealize.ShloMosaic

/-- The floor of the norm, the value the pattern of `f32(1e-12)` denotes. -/
abbrev eps : EReal := Ideal.ofBits .f32 0x2B8CBCCC#32
/-- The factor of the inner product, the value of `2.0`'s pattern. -/
abbrev two : EReal := Ideal.ofBits .f32 0x40000000#32
/-- The number of rows as a float, the value of `16384.0`'s pattern. -/
abbrev batch : EReal := Ideal.ofBits .f32 0x46800000#32

variable {n : Nat}

/-- The clamped Euclidean norm of row `R`. -/
def nrm (X : Fin n → Fin 64 → EReal) (R : Fin n) : EReal :=
  max (Ideal.sqrt (∑ k : Fin 64, X R k * X R k)) eps

/-- The normalised row. -/
def unit (X : Fin n → Fin 64 → EReal) (R : Fin n) (k : Fin 64) : EReal :=
  Ideal.div (X R k) (nrm X R)

/-- The squared distance of normalised row `R` to centre `c`, with the centres' squared norms `Q` given. -/
def dist (X : Fin n → Fin 64 → EReal) (C : Fin 8192 → Fin 64 → EReal) (Q : Fin 8192 → EReal) (R : Fin n) (c : Fin 8192) : EReal :=
  (∑ k : Fin 64, unit X R k * unit X R k) + Q c - two * ∑ k : Fin 64, unit X R k * C c k

/-- The distance where the column is the row's label, zero elsewhere. -/
def entry (X : Fin n → Fin 64 → EReal) (L : Fin n → BitVec 32) (C : Fin 8192 → Fin 64 → EReal) (Q : Fin 8192 → EReal)
    (R : Fin n) (c : Fin 8192) : EReal :=
  Scalar.select (IntOp.cmpi .eq (L R) (BitVec.ofNat 32 c.val)) (dist X C Q R c) 0

/-- Row `R`'s contribution: its entries summed over the columns. -/
def rowLoss (X : Fin n → Fin 64 → EReal) (L : Fin n → BitVec 32) (C : Fin 8192 → Fin 64 → EReal) (Q : Fin 8192 → EReal)
    (R : Fin n) : EReal :=
  ∑ c : Fin 8192, entry X L C Q R c

/-- A centre's squared norm. -/
def colSq (C : Fin 8192 → Fin 64 → EReal) (c : Fin 8192) : EReal := ∑ k : Fin 64, C c k * C c k

/-- The sum of all kept entries. -/
def total (X : Fin 16384 → Fin 64 → EReal) (L : Fin 16384 → BitVec 32) (C : Fin 8192 → Fin 64 → EReal) : EReal :=
  ∑ R : Fin 16384, rowLoss X L C (colSq C) R

/-- The loss. -/
def loss (X : Fin 16384 → Fin 64 → EReal) (L : Fin 16384 → BitVec 32) (C : Fin 8192 → Fin 64 → EReal) : EReal :=
  Ideal.div (total X L C) batch

/-- A row's contribution depends on that row only: restricting the rows along any map leaves it unchanged. -/
theorem rowLoss_comp {n' : Nat} (σ : Fin n' → Fin n) (X : Fin n → Fin 64 → EReal) (L : Fin n → BitVec 32)
    (C : Fin 8192 → Fin 64 → EReal) (Q : Fin 8192 → EReal) (r : Fin n') :
    rowLoss (fun r k => X (σ r) k) (fun r => L (σ r)) C Q r = rowLoss X L C Q (σ r) := rfl

/-- Row `128 t + r`. -/
abbrev tileRow (t r : Fin 128) : Fin 16384 := ⟨128 * t.val + r.val, by have := t.isLt; have := r.isLt; omega⟩

/-- A sum over the 16384 rows is the sum over 128 tiles of the sums over each tile's 128 rows. -/
theorem sum_tiles {M : Type*} [AddCommMonoid M] (g : Fin 16384 → M) :
    ∑ R : Fin 16384, g R = ∑ t : Fin 128, ∑ r : Fin 128, g (tileRow t r) := by
  rw [← Fintype.sum_prod_type']
  refine ((Equiv.sum_comp (finProdFinEquiv (m := 128) (n := 128)) g).symm).trans (Finset.sum_congr rfl fun p _ => ?_)
  refine congrArg g (Fin.ext ?_)
  show p.2.val + 128 * p.1.val = 128 * p.1.val + p.2.val
  omega

/-- The mask as a factor: multiplying by the 0/1 value of a one-bit word keeps or kills the factor, as the select does. -/
theorem mul_mask_eq_select (b : BitVec 1) (d : EReal) :
    d * ((b.toNat : ℝ) : EReal) = Scalar.select b d 0 := by
  by_cases h : b = 1#1
  · subst h
    rw [ValueIdx.select_one]
    show d * (((1 : ℕ) : ℝ) : EReal) = d
    rw [Nat.cast_one, EReal.coe_one, mul_one]
  · have h0 := ValueIdx.eq_zero_of_ne_one h
    subst h0
    rw [ValueIdx.select_zero]
    show d * (((0 : ℕ) : ℝ) : EReal) = 0
    rw [Nat.cast_zero, EReal.coe_zero, mul_zero]

end Cert.CenterLoss

end
-- ==== Proof.KCases.lean ====
/-
  What one grid point leaves in the accumulator block, in each of the body's two control cases.

  At the first point the body stores the zero block, reads it back and stores `0 + s`, where `s` is the tile's partial
  sum (the body's arithmetic of the four loaded blocks); at every later point it reads the running value `a` and stores
  `a + s`.  Both facts hold for any float instance.
-/
import proofs.«147967_j11828339933241_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- The zero block the first point stores. -/
abbrev zeroBlock : Vec F S1x1 .f32 := broadcast S1x1 (Scalar.ofBits .f32 0x00000000#32)

/-- A later point: the accumulator block holding `a` ends at `a + s`. -/
theorem later_point (c : Dev nD) (i : grid0.Coords) (a1 : Memref sig .tc .vmem S128x64 .f32) (h1 : a1.IsWhole)
    (a2 : Memref sig .tc .vmem S128x1 .i32) (h2 : a2.IsWhole) (a3 : Memref sig .tc .vmem S8192x64 .bf16) (h3 : a3.IsWhole)
    (a4 : Memref sig .tc .vmem S1x8192 .f32) (h4 : a4.IsWhole) (a5 : Memref sig .tc .vmem S1x1 .f32) (h5 : a5.IsWhole)
    (hc : ¬cond0_0 i) (x0 : Vec F S128x64 .f32) (x1 : Vec F S128x1 .i32) (x2 : Vec F S8192x64 .bf16) (x3 : Vec F S1x8192 .f32)
    (a : Vec F S1x1 .f32) :
    out0_B_4 c i a1 h1 a2 h2 a3 h3 a4 h4 a5 h5 hc x0 x1 x2 x3 a = addf a (k0_pay3 x0 x2 x3 x1) := by
  unfold out0_B_4
  rw [View.read_writes_eq_canon _ _ _ (cover0_B_4 c i a1 h1 a2 h2 a3 h3 a4 h4 a5 h5 hc x0 x1 x2 x3 a)]
  unfold kernelRun0_B
  dsimp only
  sl_unfold_words
  rw [View.canon_unit_zero hz]
  unfold k0_pay1
  simp only [View.readAt_eq_ld, h1.read_unread, h2.read_unread, h3.read_unread, h4.read_unread, h5.read_unread,
    View.ld_unit_zero (S := S128x64) hz, View.ld_unit_zero (S := S128x1) hz, View.ld_unit_zero (S := S8192x64) hz,
    View.ld_unit_zero (S := S1x8192) hz, View.ld_unit_zero (S := S1x1) hz, shapeCast_self]

/-- The first point: the accumulator block ends at `0 + s`. -/
theorem first_point (c : Dev nD) (i : grid0.Coords) (a1 : Memref sig .tc .vmem S128x64 .f32) (h1 : a1.IsWhole)
    (a2 : Memref sig .tc .vmem S128x1 .i32) (h2 : a2.IsWhole) (a3 : Memref sig .tc .vmem S8192x64 .bf16) (h3 : a3.IsWhole)
    (a4 : Memref sig .tc .vmem S1x8192 .f32) (h4 : a4.IsWhole) (a5 : Memref sig .tc .vmem S1x1 .f32) (h5 : a5.IsWhole)
    (hc : cond0_0 i) (x0 : Vec F S128x64 .f32) (x1 : Vec F S128x1 .i32) (x2 : Vec F S8192x64 .bf16) (x3 : Vec F S1x8192 .f32) :
    out0_A_4 c i a1 h1 a2 h2 a3 h3 a4 h4 a5 h5 hc x0 x1 x2 x3 = addf zeroBlock (k0_pay3 x0 x2 x3 x1) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x1) hz, View.readCov_unit_zero (S := S1x1) _ hz]
  unfold k0_pay1 k0_pay2
  simp only [View.readAt_eq_ld, h1.read_unread, h2.read_unread, h3.read_unread, h4.read_unread,
    View.ld_unit_zero (S := S128x64) hz, View.ld_unit_zero (S := S128x1) hz, View.ld_unit_zero (S := S8192x64) hz,
    View.ld_unit_zero (S := S1x8192) hz, View.ld_unit_zero (S := S1x1) hz, shapeCast_self]

end Cert.KernelIdeal.Cases

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.KPayload.lean ====
/-
  The body's arithmetic at one grid point, read over the extended reals: from the four loaded blocks — 128 rows of `x`,
  their 128 labels, all 8192 centres, and the centres' squared norms as a row — the body computes ONE number, the sum over
  the tile's rows of each row's loss (`Cert.CenterLoss.rowLoss`).

  The arithmetic is cut into four stages (the normalised rows; the distance matrix; the masked matrix; the two sums), each
  read at an index: a row sum is the sum of the row's entries, a column view or a broadcast re-reads an entry, the matrix
  product onto a zero accumulator is the sum over the 64 features, the lane counter along the columns is the column number.
-/
import proofs.«147967_j11828339933241_1_alg».proof.Proof.Gen.KernelIdeal.Skeleton
import proofs.«147967_j11828339933241_1_alg».proof.Proof.Spec
import proofs.«147967_j11828339933241_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen Cert.CenterLoss Cert.Keepdims

/-! ## The blocks as curried arrays -/

/-- The tile's rows of `x`. -/
abbrev rowsOf (x0 : FVec Ideal S128x64 .f32) : Fin 128 → Fin 64 → EReal := fun r k => x0 (ix2 r k)
/-- The tile's labels. -/
abbrev labelsOf (x1 : IVec S128x1 32) : Fin 128 → BitVec 32 := fun r => x1 (ix2 r (0 : Fin 1))
/-- The centres. -/
abbrev centresOf (x2 : FVec Ideal S8192x64 .bf16) : Fin 8192 → Fin 64 → EReal := fun c k => x2 (ix2 c k)
/-- The centres' squared norms, as the row the body loads. -/
abbrev normsOf (x3 : FVec Ideal S1x8192 .f32) : Fin 8192 → EReal := fun c => x3 (ix2 (0 : Fin 1) c)

/-! ## The four stages -/

/-- Stage 1: every row divided by its clamped norm. -/
def unitBlock (x0 : FVec Ideal S128x64 .f32) : FVec Ideal S128x64 .f32 :=
  divf x0 (broadcastTo S128x64 (maximumf (sqrt (shapeCast S128x1 (multiReduction .add [1] S128 (mulf x0 x0) 0x00000000#32
    reduces_S128x64_S128 (.inl rfl) rfl) shapeCasts_S128_S128x1)) (broadcast S128x1 (Scalar.ofBits .f32 0x2B8CBCCC#32)))
    broadcasts_S128x1_S128x64)

/-- Stage 2: the distance matrix of the normalised rows `u` to the centres. -/
def distBlock (u : FVec Ideal S128x64 .f32) (x2 : FVec Ideal S8192x64 .bf16) (x3 : FVec Ideal S1x8192 .f32) : FVec Ideal S128x8192 .f32 :=
  subf (addf (broadcastTo S128x8192 (shapeCast S128x1 (multiReduction .add [1] S128 (mulf u u) 0x00000000#32
        reduces_S128x64_S128 (.inl rfl) rfl) shapeCasts_S128_S128x1) broadcasts_S128x1_S128x8192)
      (broadcastTo S128x8192 (shapeCast S1x8192 x3 shapeCasts_S1x8192_S1x8192) broadcasts_S1x8192_S128x8192))
    (mulf (broadcast S128x8192 (Scalar.ofBits .f32 0x40000000#32))
      (matmul dot_S128x64_S64x8192_S128x8192_1_0_0_1_n_n none (truncf .bf16 u bitsLt_bf16_f32)
        (transpose S64x8192 [1, 0] (shapeCast S8192x64 x2 shapeCasts_S8192x64_S8192x64) transposes_S8192x64_p1_0_S64x8192)
        (constant S128x8192 .f32 0x00000000#32)))

/-- Stage 3: the matrix with every entry off the row's label column replaced by zero. -/
def keptBlock (d : FVec Ideal S128x8192 .f32) (x1 : IVec S128x1 32) : FVec Ideal S128x8192 .f32 :=
  select (cmpi .eq (broadcastTo S128x8192 (shapeCast S128x1 x1 shapeCasts_S128x1_S128x1) broadcasts_S128x1_S128x8192)
      (iota .tc S128x8192 32 [1] iota_S128x8192_d1_w32))
    d (broadcast S128x8192 (Scalar.ofBits .f32 0x00000000#32))

/-- Stage 4: the matrix summed along its rows, then the 128 row sums summed. -/
def sumBlock (e : FVec Ideal S128x8192 .f32) : FVec Ideal S1x1 .f32 :=
  shapeCast S1x1 (multiReduction .add [0] S1 (shapeCast S128x1 (multiReduction .add [1] S128 e 0x00000000#32
    reduces_S128x8192_S128 (.inl rfl) rfl) shapeCasts_S128_S128x1) 0x00000000#32 reduces_S128x1_S1 (.inl rfl) rfl) shapeCasts_S1_S1x1

/-- The body's arithmetic is the four stages composed. -/
theorem pay_eq (x0 : FVec Ideal S128x64 .f32) (x2 : FVec Ideal S8192x64 .bf16) (x3 : FVec Ideal S1x8192 .f32) (x1 : IVec S128x1 32) :
    k0_pay3 (F := Ideal) x0 x2 x3 x1 = sumBlock (keptBlock (distBlock (unitBlock x0) x2 x3) x1) := rfl

/-! ## Each stage at an index -/

theorem unitBlock_apply (x0 : FVec Ideal S128x64 .f32) (r : Fin 128) (k : Fin 64) :
    unitBlock x0 (ix2 r k) = unit (rowsOf x0) r k := by
  unfold unitBlock
  show Ideal.div (x0 (ix2 r k)) (broadcastTo S128x64 _ _ (ix2 r k)) = _
  rw [broadcastTo_a1_ab_apply]
  show Ideal.div (x0 (ix2 r k)) (max (Ideal.sqrt (shapeCast S128x1 _ _ (ix2 r (0 : Fin 1)))) (Ideal.ofBits .f32 0x2B8CBCCC#32)) = _
  rw [shapeCast_a_a1_apply, rowSum_apply]
  rfl

/-- The product's left operand index at output `(r, c)` keeps the row on its first axis. -/
theorem lhs_row (i : S128x8192.Idx) (q : dot_S128x64_S64x8192_S128x8192_1_0_0_1_n_n.contr.Idx) :
    (dot_S128x64_S64x8192_S128x8192_1_0_0_1_n_n.lhsIdx i q 0).val = (i 0).val := by
  unfold DotDims.lhsIdx
  rw [dif_neg (show ¬(0 : Fin S128x64.rank) ∈ dot_S128x64_S64x8192_S128x8192_1_0_0_1_n_n.lhsBatch by decide),
    dif_pos (show (0 : Fin S128x64.rank) ∈ dot_S128x64_S64x8192_S128x8192_1_0_0_1_n_n.lhsNonContracting by decide)]
  rfl

/-- The right operand index keeps the column on its second axis. -/
theorem rhs_col (i : S128x8192.Idx) (q : dot_S128x64_S64x8192_S128x8192_1_0_0_1_n_n.contr.Idx) :
    (dot_S128x64_S64x8192_S128x8192_1_0_0_1_n_n.rhsIdx i q 1).val = (i 1).val := by
  unfold DotDims.rhsIdx
  rw [dif_neg (show ¬(1 : Fin S64x8192.rank) ∈ dot_S128x64_S64x8192_S128x8192_1_0_0_1_n_n.rhsBatch by decide),
    dif_pos (show (1 : Fin S64x8192.rank) ∈ dot_S128x64_S64x8192_S128x8192_1_0_0_1_n_n.rhsNonContracting by decide)]
  rfl

/-- The product of a block of rows with the transposed centres, onto the zero accumulator, at `(r, c)`: the sum over the
    64 features of row `r`'s entry times centre `c`'s. -/
theorem matmul_at (l : FVec Ideal S128x64 .bf16) (w : FVec Ideal S64x8192 .bf16) (r : Fin 128) (c : Fin 8192) :
    matmul dot_S128x64_S64x8192_S128x8192_1_0_0_1_n_n none l w (constant S128x8192 .f32 0x00000000#32) (ix2 r c)
      = ∑ k : Fin 64, l (ix2 r k) * w (ix2 k c) := by
  simp only [matmul]
  rw [Ideal.matmul_constant_zero_apply,
    ← Equiv.sum_comp (ValueIdx.contrEquiv1 dot_S128x64_S64x8192_S128x8192_1_0_0_1_n_n 64 rfl rfl).symm]
  refine Finset.sum_congr rfl fun k _ => ?_
  have hk := ValueIdx.contrEquiv1_symm_val dot_S128x64_S64x8192_S128x8192_1_0_0_1_n_n 64 rfl rfl k
  have el : dot_S128x64_S64x8192_S128x8192_1_0_0_1_n_n.lhsIdx (ix2 r c)
      ((ValueIdx.contrEquiv1 dot_S128x64_S64x8192_S128x8192_1_0_0_1_n_n 64 rfl rfl).symm k) = ix2 r k :=
    funext fun a => Fin.ext (by
      match a with
      | ⟨0, _⟩ => exact lhs_row _ _
      | ⟨1, _⟩ => exact (dot_S128x64_S64x8192_S128x8192_1_0_0_1_n_n.lhsIdx_val_of_single rfl _ _).trans hk)
  have er : dot_S128x64_S64x8192_S128x8192_1_0_0_1_n_n.rhsIdx (ix2 r c)
      ((ValueIdx.contrEquiv1 dot_S128x64_S64x8192_S128x8192_1_0_0_1_n_n 64 rfl rfl).symm k) = ix2 k c :=
    funext fun a => Fin.ext (by
      match a with
      | ⟨0, _⟩ => exact (dot_S128x64_S64x8192_S128x8192_1_0_0_1_n_n.rhsIdx_val_of_single rfl _ _).trans hk
      | ⟨1, _⟩ => exact rhs_col _ _)
  rw [el, er]

theorem distBlock_apply (u : FVec Ideal S128x64 .f32) (x2 : FVec Ideal S8192x64 .bf16) (x3 : FVec Ideal S1x8192 .f32)
    (r : Fin 128) (c : Fin 8192) :
    distBlock u x2 x3 (ix2 r c)
      = (∑ k : Fin 64, u (ix2 r k) * u (ix2 r k)) + x3 (ix2 (0 : Fin 1) c) - two * ∑ k : Fin 64, u (ix2 r k) * x2 (ix2 c k) := by
  unfold distBlock
  show (broadcastTo S128x8192 _ _ (ix2 r c) + broadcastTo S128x8192 _ _ (ix2 r c))
    - (Ideal.ofBits .f32 0x40000000#32 * matmul _ none _ _ _ (ix2 r c)) = _
  rw [broadcastTo_a1_ab_apply, shapeCast_a_a1_apply, rowSum_apply, broadcastTo_1b_ab_apply, shapeCast_self, matmul_at]
  refine congrArg (fun z => _ - two * z) (Finset.sum_congr rfl fun k _ => ?_)
  show u (ix2 r k) * transpose S64x8192 [1, 0] _ _ (ix2 k c) = _
  rw [transpose_ix2_apply, shapeCast_self]

theorem keptBlock_apply (d : FVec Ideal S128x8192 .f32) (x1 : IVec S128x1 32) (r : Fin 128) (c : Fin 8192) :
    keptBlock d x1 (ix2 r c)
      = Scalar.select (IntOp.cmpi .eq (x1 (ix2 r (0 : Fin 1))) (BitVec.ofNat 32 c.val)) (d (ix2 r c)) 0 := by
  unfold keptBlock
  show Scalar.select (IntOp.cmpi .eq (broadcastTo S128x8192 _ _ (ix2 r c)) (iota .tc S128x8192 32 [1] _ (ix2 r c)))
    (d (ix2 r c)) (Ideal.ofBits .f32 0x00000000#32) = _
  rw [broadcastTo_a1_ab_apply, shapeCast_self, iota_single_apply, Ideal.ofBits_zero_f32]

theorem sumBlock_apply (e : FVec Ideal S128x8192 .f32) (j : S1x1.Idx) :
    sumBlock e j = ∑ r : Fin 128, ∑ c : Fin 8192, e (ix2 r c) := by
  obtain ⟨p, q, rfl⟩ : ∃ (p : Fin 1) (q : Fin 1), j = ix2 p q := ⟨j 0, j 1, eq_ix2 j⟩
  unfold sumBlock
  rw [shapeCast_a_a1_apply, colSum_apply]
  refine Finset.sum_congr rfl fun r _ => ?_
  rw [shapeCast_a_a1_apply, rowSum_apply]

/-! ## The tile's partial sum -/

/-- The one number a grid point computes: the sum, over the tile's 128 rows, of each row's loss. -/
theorem tile_sum (x0 : FVec Ideal S128x64 .f32) (x2 : FVec Ideal S8192x64 .bf16) (x3 : FVec Ideal S1x8192 .f32)
    (x1 : IVec S128x1 32) (j : S1x1.Idx) :
    k0_pay3 (F := Ideal) x0 x2 x3 x1 j
      = ∑ r : Fin 128, rowLoss (rowsOf x0) (labelsOf x1) (centresOf x2) (normsOf x3) r := by
  rw [pay_eq, sumBlock_apply]
  refine Finset.sum_congr rfl fun r _ => Finset.sum_congr rfl fun c _ => ?_
  rw [keptBlock_apply, distBlock_apply]
  simp only [unitBlock_apply]
  rfl

end Cert.KernelIdeal.Payload

end
-- ==== Proof.KBlocks.lean ====
/-
  The blocks a grid point reads, in terms of the argument arrays.

  Point `t` reads rows `128 t … 128 t + 127` of `x` and of the labels (the labels through their `[16384, 1]` view, whose
  entry `(R, 0)` is label `R`), and, at every point, the whole array of centres (its change of float format is the
  identity on extended reals) and the row of the centres' squared norms (the host's sum of each centre's squares from
  zero, viewed as a column and transposed: entry `(0, c)` is `∑ₖ C[c, k]²`).  A block's element sits at block index ×
  block size + its coordinate inside the block.
-/
import proofs.«147967_j11828339933241_1_alg».proof.Proof.Gen.KernelIdeal.Frame
import proofs.«147967_j11828339933241_1_alg».proof.Proof.LibKeepdims
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Blocks

open Idealize.ShloMosaic Idealize.ShloMosaic.TcCoe Idealize.SL.Sem Idealize.ShloMosaic.ValueIdx
open Cert.KernelIdeal Cert.KernelIdeal.Gen Cert.Keepdims

variable (m : (ℓ : Loc nD τ sig) → Buf (Elt Ideal) ℓ)

/-- The three argument arrays as the launch memory holds them, as plain functions of an index. -/
abbrev argX (c : Dev nD) : S16384x64.Idx → EReal := m ((c : Thread nD τ).loc main_arg0)
abbrev argL (c : Dev nD) : S16384.Idx → BitVec 32 := m ((c : Thread nD τ).loc main_arg1)
abbrev argC (c : Dev nD) : S8192x64.Idx → EReal := m ((c : Thread nD τ).loc main_arg2)

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem V_main_v0 (c : Dev nD) :
    (V m c main_v0 : S16384x1.Idx → BitVec 32) = shapeCast S16384x1 (m ((c : Thread nD τ).loc main_arg1)) shapeCasts_S16384_S16384x1 := by
  show StableHlo.after hostOps0 (fun b => m (c, b)) (Proc.devRef .tc main_v0) = _
  after_results <;> rfl

theorem V_main_v1 (c : Dev nD) :
    (V m c main_v1 : S8192x64.Idx → EReal) = (truncf (F := Ideal) (s := S8192x64) (φ := .f32) .bf16 (m ((c : Thread nD τ).loc main_arg2)) bitsLt_bf16_f32 : FVec Ideal S8192x64 .bf16) := by
  show StableHlo.after hostOps0 (fun b => m (c, b)) (Proc.devRef .tc main_v1) = _
  after_results <;> rfl

theorem V_main_v5 (c : Dev nD) :
    (V m c main_v5 : S1x8192.Idx → EReal) = transpose S1x8192 [1, 0] (broadcastInDim S8192x1 ![0] bcast_S8192_S8192x1_0
      (Host.reduceAdd (mulf (m ((c : Thread nD τ).loc main_arg2)) (m ((c : Thread nD τ).loc main_arg2)))
        (constant (F := Ideal) S_ .f32 0x00000000#32) reducesTo_S8192x64_S8192_d1 h_S_)) transposes_S8192x1_S1x8192_1_0 := by
  show StableHlo.after hostOps0 (fun b => m (c, b)) (Proc.devRef .tc main_v5) = _
  after_results <;> rfl

theorem iblk0_apply (c : Dev nD) (t : Fin cfg0.N) (r : Fin 128) (k : Fin 64) :
    (iblk m c 0 t : Vec Ideal S128x64 .f32) (ix2 r k)
      = argX m c (ix2 (⟨128 * t.val + r.val, by have := t.isLt; have hN : cfg0.N = 128 := N_0; have := r.isLt; omega⟩ : Fin 16384) k) := by
  unfold iblk
  rw [View.read_apply]
  show V m c main_arg0 _ = _
  rw [V_main_arg0]
  refine congrArg _ (funext fun a => Fin.ext ?_)
  obtain ⟨e0, e1, -⟩ := idx_facts t
  match a with
  | ⟨0, _⟩ => show win0_0.index t (0 : Fin 2) * 128 + 1 * r.val = 128 * t.val + r.val; rw [e0]; omega
  | ⟨1, _⟩ => show win0_0.index t (1 : Fin 2) * 64 + 1 * k.val = k.val; rw [e1]; omega

/-- The labels' block at point `t`: the `[16384, 1]` view of the labels at rows `128 t + r`. -/
theorem iblk1_apply (c : Dev nD) (t : Fin cfg0.N) (r : Fin 128) (q : Fin 1) :
    (iblk m c 1 t : Vec Ideal S128x1 .i32) (ix2 r q)
      = argL m c (ix1 (⟨128 * t.val + r.val, by have := t.isLt; have hN : cfg0.N = 128 := N_0; have := r.isLt; omega⟩ : Fin 16384)) := by
  unfold iblk
  rw [View.read_apply]
  show V m c main_v0 _ = _
  rw [V_main_v0]
  obtain ⟨-, -, e2, e3, -⟩ := idx_facts t
  have he : ((cfg0.win 1).blk t).view.emb (ix2 r q)
      = (ix2 (⟨128 * t.val + r.val, by have := t.isLt; have hN : cfg0.N = 128 := N_0; have := r.isLt; omega⟩ : Fin 16384) q : S16384x1.Idx) := by
    funext a; apply Fin.ext
    match a with
    | ⟨0, _⟩ => show win0_1.index t (0 : Fin 2) * 128 + 1 * r.val = 128 * t.val + r.val; rw [e2]; omega
    | ⟨1, _⟩ => show win0_1.index t (1 : Fin 2) * 1 + 1 * q.val = q.val; rw [e3]; omega
  rw [he, shapeCast_a_a1_apply]

/-- The centres' block is the whole array at every point (the change of float format is the identity on extended reals). -/
theorem iblk2_apply (c : Dev nD) (t : Fin cfg0.N) (cc : Fin 8192) (k : Fin 64) :
    (iblk m c 2 t : Vec Ideal S8192x64 .bf16) (ix2 cc k) = argC m c (ix2 cc k) := by
  unfold iblk
  rw [View.read_apply]
  show V m c main_v1 _ = _
  rw [V_main_v1]
  show m ((c : Thread nD τ).loc main_arg2) _ = _
  obtain ⟨-, -, -, -, e4, e5, -⟩ := idx_facts t
  refine congrArg _ (funext fun a => Fin.ext ?_)
  match a with
  | ⟨0, _⟩ => show win0_2.index t (0 : Fin 2) * 8192 + 1 * cc.val = cc.val; rw [e4]; omega
  | ⟨1, _⟩ => show win0_2.index t (1 : Fin 2) * 64 + 1 * k.val = k.val; rw [e5]; omega

/-- The fourth block is, at every point, the row of the centres' squared norms. -/
theorem iblk3_apply (c : Dev nD) (t : Fin cfg0.N) (q : Fin 1) (cc : Fin 8192) :
    (iblk m c 3 t : Vec Ideal S1x8192 .f32) (ix2 q cc)
      = ∑ k : Fin 64, argC m c (ix2 cc k) * argC m c (ix2 cc k) := by
  unfold iblk
  rw [View.read_apply]
  show V m c main_v5 _ = _
  rw [V_main_v5]
  obtain ⟨-, -, -, -, -, -, e6, e7⟩ := idx_facts t
  have he : ((cfg0.win 3).blk t).view.emb (ix2 q cc) = (ix2 q cc : S1x8192.Idx) := by
    funext a; apply Fin.ext
    match a with
    | ⟨0, _⟩ => show win0_3.index t (0 : Fin 2) * 1 + 1 * q.val = q.val; rw [e6]; omega
    | ⟨1, _⟩ => show win0_3.index t (1 : Fin 2) * 8192 + 1 * cc.val = cc.val; rw [e7]; omega
  rw [he, transpose_ix2_apply,
    broadcastInDim_apply _ bcast_S8192_S8192x1_0 _ (ix2 cc q) (ix1 cc) (fun a => match a with
      | ⟨0, _⟩ => by show cc.val = if (8192 : Nat) = 1 then 0 else cc.val; rw [if_neg (by decide)])]
  simp only [Host.reduceAdd, Ideal.hostReduceAdd_def]
  rw [Ideal.hostReduceAdd_single reducesTo_S8192x64_S8192_d1 (by decide)]
  show Ideal.ofBits .f32 0x00000000#32 + _ = _
  rw [Ideal.ofBits_zero_f32, zero_add]
  refine Finset.sum_congr rfl fun k _ => ?_
  have hi : Shape.Reduces.lift (s := S8192x64) (t := S8192) (a := 1) (by decide) (ix1 cc) k = ix2 cc k :=
    funext fun a => Fin.ext (by match a with | ⟨0, _⟩ => rfl | ⟨1, _⟩ => rfl)
  show argC m c _ * argC m c _ = _
  rw [hi]
  rfl

end Cert.KernelIdeal.Blocks

end
-- ==== Proof.KFold.lean ====
/-
  The accumulator over the grid, and the program's result.

  After point `n` the accumulator block holds the sum of the partial sums of tiles `0 … n` (induction on the point: the
  first point leaves `0 + s₀`, every later one adds its own partial sum); tile `t`'s partial sum is the sum of the losses
  of rows `128 t … 128 t + 127`, because the blocks the point reads are those rows of `x` and of the labels, all the
  centres, and the centres' squared norms.  After the last point the block is written back: the `[1, 1]` array holds the
  sum over all 16384 rows, and the host's division by `16384.0` gives the loss.
-/
import proofs.«147967_j11828339933241_1_alg».proof.Proof.Gen.KernelIdeal.Frame
import proofs.«147967_j11828339933241_1_alg».proof.Proof.Spec
import proofs.«147967_j11828339933241_1_alg».proof.Proof.KCases
import proofs.«147967_j11828339933241_1_alg».proof.Proof.KPayload
import proofs.«147967_j11828339933241_1_alg».proof.Proof.KBlocks
import Idealize.ShloMosaic.Lib.Pipeline.Value
import Idealize.ShloMosaic.Lib.StableHlo.Run
import Idealize.ShloMosaic.Lib.Tactic

noncomputable section

namespace Cert.KernelIdeal.Fold

open Idealize.ShloMosaic Idealize.ShloMosaic.TcCoe Idealize.SL.Sem Idealize.ShloMosaic.ValueIdx
open Idealize.ShloMosaic.Pipeline (Dat)
open Cert.KernelIdeal Cert.KernelIdeal.Gen Cert.CenterLoss
open Cert.KernelIdeal.Cases Cert.KernelIdeal.Payload Cert.KernelIdeal.Blocks

variable (m : (ℓ : Loc nD τ sig) → Buf (Elt Ideal) ℓ) (ρ : Dev nD → PrngReg)

/-- The argument arrays, curried. -/
abbrev X (c : Dev nD) : Fin 16384 → Fin 64 → EReal := fun R k => argX m c (ix2 R k)
abbrev L (c : Dev nD) : Fin 16384 → BitVec 32 := fun R => argL m c (ix1 R)
abbrev C (c : Dev nD) : Fin 8192 → Fin 64 → EReal := fun cc k => argC m c (ix2 cc k)

/-- Tile `t`'s partial sum: the losses of its 128 rows. -/
def tileLoss (c : Dev nD) (t : Fin 128) : EReal :=
  ∑ r : Fin 128, rowLoss (X m c) (L m c) (C m c) (colSq (C m c)) (tileRow t r)

/-- The same for any natural number (zero past the grid), so that running sums range over naturals. -/
def tileAt (c : Dev nD) (s : ℕ) : EReal := if h : s < 128 then tileLoss m c ⟨s, h⟩ else 0

theorem tileAt_of_lt (c : Dev nD) (s : ℕ) (h : s < 128) : tileAt m c s = tileLoss m c ⟨s, h⟩ := dif_pos h

/-- What point `t` computes from the blocks it reads is tile `t`'s partial sum. -/
theorem point_sum (c : Dev nD) (t : Fin cfg0.N) (j : S1x1.Idx) :
    k0_pay3 (F := Ideal) (iblk m c 0 t) (iblk m c 2 t) (iblk m c 3 t) (iblk m c 1 t) j = tileAt m c t.val := by
  have hN : cfg0.N = 128 := N_0
  have ht : t.val < 128 := by have := t.isLt; omega
  refine (tile_sum (iblk m c 0 t) (iblk m c 2 t) (iblk m c 3 t) (iblk m c 1 t) j).trans ?_
  rw [tileAt_of_lt m c t.val ht]
  unfold tileLoss
  refine Finset.sum_congr rfl fun r _ => ?_
  have hX : rowsOf (iblk m c 0 t) = fun r k => X m c (tileRow ⟨t.val, ht⟩ r) k :=
    funext fun r => funext fun k => iblk0_apply m c t r k
  have hL : labelsOf (iblk m c 1 t) = fun r => L m c (tileRow ⟨t.val, ht⟩ r) :=
    funext fun r => iblk1_apply m c t r 0
  have hC : centresOf (iblk m c 2 t) = C m c := funext fun cc => funext fun k => iblk2_apply m c t cc k
  have hQ : normsOf (iblk m c 3 t) = colSq (C m c) := funext fun cc => iblk3_apply m c t 0 cc
  rw [hX, hL, hC, hQ]
  exact rowLoss_comp (tileRow ⟨t.val, ht⟩) (X m c) (L m c) (C m c) (colSq (C m c)) r

/-- After point `n` the accumulator block holds the sum of the partial sums of tiles `0 … n`. -/
theorem outsAt_eq (c : Dev nD) : ∀ (n : ℕ) (h : n < cfg0.N) (j : S1x1.Idx),
    outsAt0 m c n h j = ∑ s ∈ Finset.range (n + 1), tileAt m c s
  | 0, h, j => by
    refine (congrFun ((outsAt0_A m c ⟨0, h⟩ rfl).trans (first_point ..)) j).trans ?_
    show Ideal.ofBits .f32 0x00000000#32 + k0_pay3 (F := Ideal) _ _ _ _ j = _
    rw [Ideal.ofBits_zero_f32, zero_add, point_sum, Finset.sum_range_one]
  | n + 1, h, j => by
    have hN : cfg0.N = 128 := N_0
    have hB : ¬(⟨n + 1, h⟩ : Fin cfg0.N).val % 128 = 0 := by dsimp only; omega
    refine (congrFun ((outsAt0_B m c ⟨n + 1, h⟩ hB).trans (later_point ..)) j).trans ?_
    show outsAt0 m c n _ j + k0_pay3 (F := Ideal) _ _ _ _ j = _
    rw [outsAt_eq c n _ j, point_sum, Finset.sum_range_succ _ (n + 1)]

/-- The sum of all kept entries of the launch arrays, as one number. -/
def grand (c : Dev nD) : EReal := total (X m c) (L m c) (C m c)

/-- The partial sums of all 128 tiles add up to the sum over all rows. -/
theorem sum_tileAt (c : Dev nD) : ∑ s ∈ Finset.range 128, tileAt m c s = grand m c := by
  unfold grand total
  rw [sum_tiles, Finset.sum_range]
  refine Finset.sum_congr rfl fun t _ => ?_
  rw [tileAt_of_lt m c t.val t.isLt]
  rfl

/-- The loss is that number divided by the number of rows. -/
theorem loss_eq (c : Dev nD) : loss (X m c) (L m c) (C m c) = Ideal.div (grand m c) batch := rfl

-- from here on the grand total is a number whose formula is not reopened
attribute [irreducible] grand

/-- The `[1, 1]` result array of the kernel after the run: the sum over all rows. -/
abbrev accArr (c : Dev nD) : Buf (Elt Ideal) ((c : Thread nD τ).loc main_v6) := fun _ => grand m c

/-- The accumulator's index map and block, decided over the grid: block (0, 0), uncut, at every point. -/
theorem acc_facts : ∀ t : Fin cfg0.N, win0_4.index t (0 : Fin 2) = 0 ∧ win0_4.index t (1 : Fin 2) = 0
    ∧ win0_4.xsize (grid0.coords t) (0 : Fin 2) = 1 ∧ win0_4.xsize (grid0.coords t) (1 : Fin 2) = 1 :=
  (by decide +kernel : ∀ t : Fin grid0.N, _)

/-- The one write-back, after the last point, writes the sum over all rows. -/
theorem flushed_eq (c : Dev nD) (t : Fin cfg0.N) (hf : (cfg0.win 4).flush t = true) :
    (dats m 0 c).flushed 4 t = ((cfg0.win 4).blk t).view.read (Elt Ideal) (accArr m c) := by
  have hN : cfg0.N = 128 := N_0
  have h127 : t.val = 127 := by have := (flush0_4 t).mp hf; have := t.isLt; omega
  show (cfg0.win 4).cut (grid0.coords t) ((dats m 0 c).after 4 t) = _
  rw [after0_4]
  funext j
  rw [View.read_apply]
  have e2 : ∑ s ∈ Finset.range (t.val + 1), tileAt m c s = grand m c := by
    rw [h127]; exact sum_tileAt m c
  have e1 : (cfg0.win 4).cut (grid0.coords t) (outsAt0 m c t.val t.isLt) j = ∑ s ∈ Finset.range (t.val + 1), tileAt m c s :=
    outsAt_eq m c t.val t.isLt _
  have e3 : accArr m c (((cfg0.win 4).blk t).view.emb j) = grand m c := rfl
  rw [e1, e3]
  exact e2

/-- The last grid point. -/
abbrev tLast : Fin cfg0.N := ⟨127, by rw [show cfg0.N = 128 from N_0]; decide⟩

/-- So the kernel's result array ends holding the sum over all rows. -/
theorem final_acc (c : Dev nD) : (dats m 0 c).arrAt 4 cfg0.N = accArr m c :=
  (dats m 0 c).arrAt_eq_of_cover 4 (accArr m c) (flushed_eq m c) fun i =>
    ⟨tLast, (flush0_4 tLast).mpr rfl, by
      show i ∈ ((View.whole main_v6).slice (win0_4.rect tLast)).set
      rw [View.set_slice_whole, Rect.mem_set_unit]
      intro a
      obtain ⟨e0, e1, s0, s1⟩ := acc_facts tLast
      have h0 : (i 0 : Nat) < 1 := (i 0).isLt
      have h1 : (i 1 : Nat) < 1 := (i 1).isLt
      match a with
      | ⟨0, _⟩ =>
        show win0_4.index tLast (0 : Fin 2) * win0_4.size 0 ≤ (i 0 : Nat) ∧ (i 0 : Nat) < win0_4.index tLast (0 : Fin 2) * win0_4.size 0 + win0_4.xsize (grid0.coords tLast) (0 : Fin 2)
        rw [e0, s0]; omega
      | ⟨1, _⟩ =>
        show win0_4.index tLast (1 : Fin 2) * win0_4.size 1 ≤ (i 1 : Nat) ∧ (i 1 : Nat) < win0_4.index tLast (1 : Fin 2) * win0_4.size 1 + win0_4.xsize (grid0.coords tLast) (1 : Fin 2)
        rw [e1, s1]; omega⟩

/-- The program's result: the host's reshape to a scalar and division by the number of rows give the loss. -/
theorem tail_eq (c : Dev nD) :
    Pipeline.afterTail₀ cfgs (dats m) 0 (V0 m) [hostOps1] c main_v8 = fun _ => loss (X m c) (L m c) (C m c) := by
  unfold Pipeline.afterTail₀
  show StableHlo.after hostOps1 _ (Proc.devRef .tc main_v8) = _
  after_results
  funext i
  have hw : Pipeline.withArrays (cfgs 0).spec c (V0 m c) (fun w => (dats m 0 c).arrAt w (cfgs 0).N) (Proc.devRef .tc main_v6)
      = accArr m c :=
    (Pipeline.withArrays_arr spec0 launch0.win.arr_inj c _ _ 4).trans (final_acc m c)
  show Ideal.div (shapeCast S_ (Pipeline.withArrays (cfgs 0).spec c (V0 m c) (fun w => (dats m 0 c).arrAt w (cfgs 0).N)
    (Proc.devRef .tc main_v6)) shapeCasts_S1x1_S_ i) (Ideal.ofBits .f32 0x46800000#32) = _
  rw [hw, loss_eq]
  rfl

/-- The run, read: the result at the loss, the three arguments unchanged. -/
theorem run : θ_run defs (onTc (τ := τ) (main (F := Ideal))) ⟨m, fun _ => 0, ρ⟩ fun r => ∀ c : Dev nD,
      r.2.mem ((c.tc : Thread nD τ).loc main_v8) = (fun _ => loss (X m c) (L m c) (C m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Fold

end
-- ==== Proof.RefValue.lean ====
/-
  The reference's result is the loss: its host operations, read one at a time at an index, are the specification's
  formulas.  The norm is `max (√(0 + ∑ₖ x²)) ε`, the quotient the extended reals' quotient, each host sum `0 + ∑`, the
  product with the transposed centres the sum over the 64 features, and the product with the 0/1 mask keeps or kills
  the distance exactly as a selection does; the total over the `[16384, 8192]` matrix is the double sum over rows and columns.
-/
import proofs.«147967_j11828339933241_1_alg».proof.Proof.Gen.ReferenceIdeal.Read
import proofs.«147967_j11828339933241_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Read Cert.CenterLoss

variable (x0 : (⟨S16384x64, .f32⟩ : BufTy).Contents (Elt Ideal)) (x1 : (⟨S16384, .i32⟩ : BufTy).Contents (Elt Ideal))
  (x2 : (⟨S8192x64, .f32⟩ : BufTy).Contents (Elt Ideal))

/-- The arguments as curried arrays. -/
abbrev rowsOf : Fin 16384 → Fin 64 → EReal := fun R k => x0 (ix2 R k)
abbrev labelsOf : Fin 16384 → BitVec 32 := fun R => x1 (ix1 R)
abbrev centresOf : Fin 8192 → Fin 64 → EReal := fun c k => x2 (ix2 c k)

local macro "idx2" : tactic => `(tactic| exact funext fun a => Fin.ext (by match a with | ⟨0, _⟩ => rfl | ⟨1, _⟩ => rfl))
local macro "idx1" : tactic => `(tactic| exact funext fun a => Fin.ext (by match a with | ⟨0, _⟩ => rfl))

/-- The clamped norm of row `R`. -/
theorem nrm_eq (R : Fin 16384) (q : Fin 1) : val_main_v2 (F := Ideal) x0 (ix2 R q) = nrm (rowsOf x0) R := by
  rw [val_main_v2_apply, val_main_v0_apply, val_main_call0_v2_apply, val_main_call0_v1_apply, val_main_v1_apply, val_main_cst_apply]
  show max (Ideal.sqrt (Ideal.ofBits .f32 0x00000000#32 + ∑ k : Fin 64, val_main_call0_v0 (F := Ideal) x0 _)) (Ideal.ofBits .f32 0x2B8CBCCC#32) = _
  rw [Ideal.ofBits_zero_f32, zero_add]
  unfold nrm
  refine congrArg (fun z => max (Ideal.sqrt z) eps) (Finset.sum_congr rfl fun k _ => ?_)
  have e : idx_main_call0_v1 (idx_main_call0_v2 (ix2 R q)) k = ix2 R k := by idx2
  rw [e, val_main_call0_v0_apply]
  rfl

/-- The normalised row. -/
theorem unit_eq (R : Fin 16384) (k : Fin 64) : val_main_v4 (F := Ideal) x0 (ix2 R k) = unit (rowsOf x0) R k := by
  rw [val_main_v4_apply, val_main_v3_apply]
  have e : idx_main_v3 (ix2 R k) = ix2 R (0 : Fin 1) := by idx2
  rw [e, nrm_eq]
  rfl

/-- The normalised row's squared norm. -/
theorem rowSq_eq (R : Fin 16384) (q : Fin 1) :
    val_main_v7 (F := Ideal) x0 (ix2 R q) = ∑ k : Fin 64, unit (rowsOf x0) R k * unit (rowsOf x0) R k := by
  rw [val_main_v7_apply, val_main_v6_apply]
  show Ideal.ofBits .f32 0x00000000#32 + ∑ k : Fin 64, val_main_v5 (F := Ideal) x0 _ = _
  rw [Ideal.ofBits_zero_f32, zero_add]
  refine Finset.sum_congr rfl fun k _ => ?_
  have e : idx_main_v6 (idx_main_v7 (ix2 R q)) k = ix2 R k := by idx2
  rw [e, val_main_v5_apply, unit_eq]
  rfl

/-- A centre's squared norm. -/
theorem colSq_eq (q : Fin 1) (c : Fin 8192) : val_main_v10 (F := Ideal) x2 (ix2 q c) = colSq (centresOf x2) c := by
  rw [val_main_v10_apply, val_main_v9_apply]
  show Ideal.ofBits .f32 0x00000000#32 + ∑ k : Fin 64, val_main_v8 (F := Ideal) x2 _ = _
  rw [Ideal.ofBits_zero_f32, zero_add]
  unfold colSq
  refine Finset.sum_congr rfl fun k _ => ?_
  have e : idx_main_v9 (idx_main_v10 (ix2 q c)) k = ix2 c k := by idx2
  rw [e, val_main_v8_apply]
  rfl

/-- The inner product of normalised row `R` with centre `c`. -/
theorem inner_eq (R : Fin 16384) (c : Fin 8192) :
    val_main_v15 (F := Ideal) x0 x2 (ix2 R c) = ∑ k : Fin 64, unit (rowsOf x0) R k * centresOf x2 c k := by
  rw [val_main_v15_apply]
  refine Finset.sum_congr rfl fun k _ => ?_
  have el : lidx_main_v15 (ix2 R c) k = ix2 R k := by idx2
  have er : ridx_main_v15 (ix2 R c) k = ix2 k c := by idx2
  have et : idx_main_v14 (ix2 k c) = ix2 c k := by idx2
  rw [el, er, unit_eq, val_main_v14_apply, et]

/-- The comparison of row `R`'s label with column `c`. -/
theorem mask_eq (R : Fin 16384) (c : Fin 8192) :
    val_main_v24 (F := Ideal) x1 (ix2 R c) = IntOp.cmpi .eq (labelsOf x1 R) (BitVec.ofNat 32 c.val) := by
  rw [val_main_v24_apply, val_main_v22_apply, val_main_v19_apply, val_main_v23_apply, val_main_v21_apply, val_main_v20_apply]
  have e : idx_main_v19 (idx_main_v22 (ix2 R c)) = ix1 R := by idx1
  rw [e]

/-- An entry of the masked distance matrix. -/
theorem entry_eq (R : Fin 16384) (c : Fin 8192) :
    val_main_v26 (F := Ideal) x0 x1 x2 (ix2 R c)
      = entry (rowsOf x0) (labelsOf x1) (centresOf x2) (colSq (centresOf x2)) R c := by
  rw [val_main_v26_apply, val_main_v25_apply, val_main_v18_apply, val_main_v13_apply, val_main_v17_apply,
    val_main_v11_apply, val_main_v12_apply, val_main_v16_apply, val_main_cst_2_apply, mask_eq, inner_eq]
  have e1 : idx_main_v11 (ix2 R c) = ix2 R (0 : Fin 1) := by idx2
  have e2 : idx_main_v12 (ix2 R c) = ix2 (0 : Fin 1) c := by idx2
  rw [e1, e2, rowSq_eq, colSq_eq]
  exact mul_mask_eq_select _ _

/-- The reference's result is the loss. -/
theorem result_eq (i : S_.Idx) :
    val_main_v28 (F := Ideal) x0 x1 x2 i = loss (rowsOf x0) (labelsOf x1) (centresOf x2) := by
  rw [val_main_v28_apply, val_main_v27_apply, val_main_cst_4_apply, val_main_cst_3_apply]
  show Ideal.div (Ideal.ofBits .f32 0x00000000#32 + ∑ j : S16384x8192.Idx, val_main_v26 (F := Ideal) x0 x1 x2 j) (Ideal.ofBits .f32 0x46800000#32) = _
  rw [Ideal.ofBits_zero_f32, zero_add, sum_idx2]
  unfold loss total rowLoss
  refine congrArg (fun z => Ideal.div z batch) (Finset.sum_congr rfl fun R _ => Finset.sum_congr rfl fun c _ => ?_)
  exact entry_eq x0 x1 x2 R c

end Cert.ReferenceIdeal.RefValue

end
-- ==== Proof.lean ====
/-
  The centre loss: a kernel that walks 128 tiles of 128 rows, accumulating each tile's partial sum into one `[1, 1]`
  block, against the reference that builds the whole `[16384, 8192]` masked distance matrix and sums it.

  Over the extended reals both compute `(∑_R ∑_c [label R = c] · d(R, c)) / 16384` with
  `d(R, c) = ∑ₖ u² + ∑ₖ C² − 2 · ∑ₖ u · C` and `u = x / max (√(∑ₖ x²)) ε`:
  * the kernel's rounding of the normalised rows and of the centres to bf16 is the identity there, its matrix product
    onto a zero accumulator is the host's product, and its row and column reductions are the host's sums;
  * selecting the distance where the label meets the column, else zero, is multiplying it by the 0/1 mask
    (`d · 1 = d` and `d · 0 = 0` hold for every extended real, the infinities included);
  * sums of extended reals commute and associate, so the sum over all rows is the sum over the tiles of the sums over
    each tile's rows, in the order the grid accumulates them; no finiteness of the inputs is used.
  The kernel's frames are the generated ones; the reference's frame is its generated run; the ideal pass rewrote
  nothing, so `preserves` is trivial.
-/
import proofs.«147967_j11828339933241_1_alg».proof.Defs
import proofs.«147967_j11828339933241_1_alg».proof.Proof.Gen.Kernel
import proofs.«147967_j11828339933241_1_alg».proof.Proof.Gen.Kernel.Skeleton
import proofs.«147967_j11828339933241_1_alg».proof.Proof.Gen.Kernel.Launch
import proofs.«147967_j11828339933241_1_alg».proof.Proof.Gen.Kernel.Points
import proofs.«147967_j11828339933241_1_alg».proof.Proof.Gen.Kernel.Frame
import proofs.«147967_j11828339933241_1_alg».proof.Proof.Gen.KernelIdeal
import proofs.«147967_j11828339933241_1_alg».proof.Proof.Gen.KernelIdeal.Skeleton
import proofs.«147967_j11828339933241_1_alg».proof.Proof.Gen.KernelIdeal.Launch
import proofs.«147967_j11828339933241_1_alg».proof.Proof.Gen.KernelIdeal.Points
import proofs.«147967_j11828339933241_1_alg».proof.Proof.Gen.KernelIdeal.Frame
import proofs.«147967_j11828339933241_1_alg».proof.Proof.Gen.ReferenceIdeal
import proofs.«147967_j11828339933241_1_alg».proof.Proof.Gen.Pre_finite_inputs
import proofs.«147967_j11828339933241_1_alg».proof.Proof.Gen.ReferenceIdeal.Run
import proofs.«147967_j11828339933241_1_alg».proof.Proof.Gen.ReferenceIdeal.Read
import proofs.«147967_j11828339933241_1_alg».proof.Proof.KFold
import proofs.«147967_j11828339933241_1_alg».proof.Proof.RefValue
import Idealize.ShloMosaic.Adequacy
import Idealize.ShloMosaic.Init

noncomputable section

namespace Cert.Proof

open Idealize.ShloMosaic Idealize.SL.Sem Cert.CenterLoss

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the (agreeing) arguments. -/
theorem algebraic : Cert.algebraic_KernelIdeal_ReferenceIdeal := by
  intro m ρ m' ρ' _ hagree
  refine ⟨fun c => (fun _ => loss (Cert.KernelIdeal.Fold.X m c) (Cert.KernelIdeal.Fold.L m c) (Cert.KernelIdeal.Fold.C m c)),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  funext i
  rw [Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
